-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S1600000x32 : Shape := ⟨2, ![1600000, 32]⟩
abbrev S16x16 : Shape := ⟨2, ![16, 16]⟩
abbrev S1600000 : Shape := ⟨1, ![1600000]⟩
abbrev S160x128 : Shape := ⟨2, ![160, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S16x16 : S_.BroadcastsInDim S16x16 (![] : Fin 0 → Fin S16x16.rank)
  reducesTo_S16x16_S_d0_1 : S16x16.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S160x128 .f32) (main_arg6 : FVec F S128 .f32) (main_arg7 : FVec F S128x32 .f32) (main_arg8 : FVec F S32 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S160x128 .f32 := Host.absf main_arg5
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg7
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg8 main_v33

def fn {F : FTy → Type} [FloatOps F] (main_arg0 : FVec F S1600000x64 .f32) (main_arg1 : FVec F S1600000x64 .f32) (main_arg2 : FVec F S1600000x32 .f32) (main_arg3 : FVec F S16x16 .f32) (main_arg4 : IVec S1600000 32) (main_arg5 : FVec F S160x128 .f32) (main_arg6 : FVec F S128 .f32) (main_arg7 : FVec F S128x32 .f32) (main_arg8 : FVec F S32 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_v13 main_v16
-- ==== Kernel.lean ====
abbrev S1600000x64 : Shape := ⟨2, ![1600000, 64]⟩
abbrev S1600000x32 : Shape := ⟨2, ![1600000, 32]⟩
abbrev S16x16 : Shape := ⟨2, ![16, 16]⟩
abbrev S1600000 : Shape := ⟨1, ![1600000]⟩
abbrev S160x128 : Shape := ⟨2, ![160, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S32x128 : Shape := ⟨2, ![32, 128]⟩
abbrev S10000x64 : Shape := ⟨2, ![10000, 64]⟩
abbrev S10000x32 : Shape := ⟨2, ![10000, 32]⟩
abbrev S10000x128 : Shape := ⟨2, ![10000, 128]⟩
abbrev S1x128 : Shape := ⟨2, ![1, 128]⟩
abbrev S1x32 : Shape := ⟨2, ![1, 32]⟩

abbrev nBuf : Space → Nat
  | .hbm => 13
  | .vmem => 14
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S16x16, .f32⟩
  | .hbm, ⟨4, _⟩ => ⟨S1600000, .i32⟩
  | .hbm, ⟨5, _⟩ => ⟨S160x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S64x128, .f32⟩
  | .hbm, ⟨10, _⟩ => ⟨S64x128, .f32⟩
  | .hbm, ⟨11, _⟩ => ⟨S32x128, .f32⟩
  | .hbm, ⟨12, _⟩ => ⟨S1600000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x32, .f32⟩
  | .local _ .vmem, ⟨5, _⟩ => ⟨S10000x32, .f32⟩
  | .local _ .vmem, ⟨6, _⟩ => ⟨S64x128, .f32⟩
  | .local _ .vmem, ⟨7, _⟩ => ⟨S64x128, .f32⟩
  | .local _ .vmem, ⟨8, _⟩ => ⟨S32x128, .f32⟩
  | .local _ .vmem, ⟨9, _⟩ => ⟨S128, .f32⟩
  | .local _ .vmem, ⟨10, _⟩ => ⟨S128x32, .f32⟩
  | .local _ .vmem, ⟨11, _⟩ => ⟨S32, .f32⟩
  | .local _ .vmem, ⟨12, _⟩ => ⟨S10000x32, .f32⟩
  | .local _ .vmem, ⟨13, _⟩ => ⟨S10000x32, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S160x128_S64x128_0_0 : S160x128.Slices ![0, 0] S64x128
  slices_S160x128_S64x128_64_0 : S160x128.Slices ![64, 0] S64x128
  slices_S160x128_S32x128_128_0 : S160x128.Slices ![128, 0] S32x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x32_S10000x32_0_0 : ∀ a, (![0, 0] : Fin 2 → Nat) a + S10000x32.size a ≤ S10000x32.size a
  h_S10000x32 : 0 < S10000x32.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  dot_S10000x64_S64x128_S10000x128_1_0_0_1_n_n_wf : DotDims.WF S10000x64 S64x128 S10000x128 [1] [0] [0] [1] [] []
  dot_S10000x32_S32x128_S10000x128_1_0_0_1_n_n_wf : DotDims.WF S10000x32 S32x128 S10000x128 [1] [0] [0] [1] [] []
  dot_S10000x128_S128x32_S10000x32_1_0_0_1_n_n_wf : DotDims.WF S10000x128 S128x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1600000x64.size a
  hwx0_0 : ∀ i : grid0.Coords, EltTy.bits .f32 = 32 ∨ (Rect.block (s := S1600000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S1600000x64.size a
  hwx0_1 : ∀ i : grid0.Coords, EltTy.bits .f32 = 32 ∨ (Rect.block (s := S1600000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S1600000x32.size a
  hwx0_2 : ∀ i : grid0.Coords, EltTy.bits .f32 = 32 ∨ (Rect.block (s := S1600000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x32.size a ≤ S128x32.size a
  hwx0_7 : ∀ i : grid0.Coords, EltTy.bits .f32 = 32 ∨ (Rect.block (s := S128x32) S128x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x32.size a ≤ S1600000x32.size a
  hwx0_9 : ∀ i : grid0.Coords, EltTy.bits .f32 = 32 ∨ (Rect.block (s := S1600000x32) S10000x32.size (cc0_transform_9 i) (hinb0_9 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S10000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S1600000x32 : Shape := ⟨2, ![1600000, 32]⟩
abbrev S16x16 : Shape := ⟨2, ![16, 16]⟩
abbrev S1600000 : Shape := ⟨1, ![1600000]⟩
abbrev S160x128 : Shape := ⟨2, ![160, 128]⟩
abbrev S128 : Shape := ⟨1, ![128]⟩
abbrev S128x32 : Shape := ⟨2, ![128, 32]⟩
abbrev S32 : Shape := ⟨1, ![32]⟩
abbrev S1600000x160 : Shape := ⟨2, ![1600000, 160]⟩
abbrev S1600000x128 : Shape := ⟨2, ![1600000, 128]⟩
abbrev S1x128 : Shape := ⟨2, ![1, 128]⟩
abbrev S_ : Shape := ⟨0, ![]⟩
abbrev S1x32 : Shape := ⟨2, ![1, 32]⟩

abbrev nBuf : Space → Nat
  | .hbm => 21
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S16x16, .f32⟩
  | .hbm, ⟨4, _⟩ => ⟨S1600000, .i32⟩
  | .hbm, ⟨5, _⟩ => ⟨S160x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S1600000x160, .f32⟩
  | .hbm, ⟨10, _⟩ => ⟨S1600000x128, .f32⟩
  | .hbm, ⟨11, _⟩ => ⟨S1x128, .f32⟩
  | .hbm, ⟨12, _⟩ => ⟨S1600000x128, .f32⟩
  | .hbm, ⟨13, _⟩ => ⟨S1600000x128, .f32⟩
  | .hbm, ⟨14, _⟩ => ⟨S_, .f32⟩
  | .hbm, ⟨15, _⟩ => ⟨S1600000x128, .f32⟩
  | .hbm, ⟨16, _⟩ => ⟨S1600000x128, .f32⟩
  | .hbm, ⟨17, _⟩ => ⟨S1600000x32, .f32⟩
  | .hbm, ⟨18, _⟩ => ⟨S1x32, .f32⟩
  | .hbm, ⟨19, _⟩ => ⟨S1600000x32, .f32⟩
  | .hbm, ⟨20, _⟩ => ⟨S1600000x32, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  dot_S1600000x160_S160x128_S1600000x128_1_0_0_1_n_n_wf : DotDims.WF S1600000x160 S160x128 S1600000x128 [1] [0] [0] [1] [] []
  dot_S1600000x128_S128x32_S1600000x32_1_0_0_1_n_n_wf : DotDims.WF S1600000x128 S128x32 S1600000x32 [1] [0] [0] [1] [] []

variable [Facts₀]

def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x32_S1600000x32_1_0_0_1_n_n : DotDims S1600000x128 S128x32 S1600000x32 where
  lhsContracting := [1]
  rhsContracting := [0]
  lhsNonContracting := [0]
  rhsNonContracting := [1]
  lhsBatch := []
  rhsBatch := []
  wf := dot_S1600000x128_S128x32_S1600000x32_1_0_0_1_n_n_wf

class Facts : Prop extends Facts₀ where

variable [Facts]
-- ==== Proof.EdgeMlpSpec.lean ====
/-
  The function both programs compute, stated once over the argument arrays, and the one law of sums that joins the
  two ways of computing it.

  An edge `r` carries a source row (64 features), a destination row (64) and an attribute row (32). Laid side by side
  they form one row of 160 features, which a first linear layer `w1 : 160 × 128` with bias `b1` sends to 128 hidden
  values, each clipped below at zero; a second linear layer `w2 : 128 × 32` with bias `b2` sends those to the 32
  outputs of the edge. Because the 160 features are three consecutive bands, the first layer's inner product over 160
  features is the sum of three inner products, of the source row with rows 0–63 of `w1`, of the destination row with
  rows 64–127, and of the attribute row with rows 128–159: `hidden` is written in that banded form, and
  `sum_three_bands` is the law that a sum over 160 consecutive terms is the sum of its three bands. It uses only that
  addition is commutative and associative, so it holds on the extended reals with no finiteness assumption.
-/
import Idealize.ShloMosaic.PureOps.Ideal
import Idealize.ShloMosaic.Lib.ValueIdx

noncomputable section

open scoped BigOperators

namespace Cert.EdgeMlp

open Idealize.ShloMosaic Idealize.ShloMosaic.ValueIdx

/-- A sum over 160 consecutive terms is the sum over terms 0–63, plus the sum over terms 64–127, plus the sum over
    terms 128–159 (split 160 = 128 + 32, then 128 = 64 + 64). -/
theorem sum_three_bands {M : Type*} [AddCommMonoid M] (f : Fin 160 → M) :
    ∑ j : Fin 160, f j
      = (∑ j : Fin 64, f ⟨j.val, by have := j.isLt; omega⟩ + ∑ j : Fin 64, f ⟨64 + j.val, by have := j.isLt; omega⟩)
        + ∑ j : Fin 32, f ⟨128 + j.val, by have := j.isLt; omega⟩ := by
  have h1 : ∑ j : Fin (128 + 32), f j = ∑ j : Fin 128, f (Fin.castAdd 32 j) + ∑ j : Fin 32, f (Fin.natAdd 128 j) :=
    Fin.sum_univ_add (a := 128) (b := 32) f
  have h2 : ∑ j : Fin (64 + 64), f (Fin.castAdd 32 j)
      = ∑ j : Fin 64, f (Fin.castAdd 32 (Fin.castAdd 64 j)) + ∑ j : Fin 64, f (Fin.castAdd 32 (Fin.natAdd 64 j)) :=
    Fin.sum_univ_add (a := 64) (b := 64) fun j : Fin (64 + 64) => f (Fin.castAdd 32 j)
  exact h1.trans (congrArg (· + ∑ j : Fin 32, f (Fin.natAdd 128 j)) h2)

/-- Hidden value `k` of edge `r`: the three banded inner products with `w1`'s column `k`, the bias, clipped below
    at zero (the zero kept as the float word both programs write). -/
def hidden (src dst : (⟨2, ![1600000, 64]⟩ : Shape).Idx → EReal) (attr : (⟨2, ![1600000, 32]⟩ : Shape).Idx → EReal)
    (w1 : (⟨2, ![160, 128]⟩ : Shape).Idx → EReal) (b1 : (⟨1, ![128]⟩ : Shape).Idx → EReal)
    (r : Fin 1600000) (k : Fin 128) : EReal :=
  max (((∑ j : Fin 64, src (ix2 r j) * w1 (ix2 (⟨j.val, by have := j.isLt; omega⟩ : Fin 160) k)
          + ∑ j : Fin 64, dst (ix2 r j) * w1 (ix2 (⟨64 + j.val, by have := j.isLt; omega⟩ : Fin 160) k))
        + ∑ j : Fin 32, attr (ix2 r j) * w1 (ix2 (⟨128 + j.val, by have := j.isLt; omega⟩ : Fin 160) k))
      + b1 (ix1 k))
    (Ideal.ofBits .f32 0x00000000#32)

/-- Output `o` of edge `r`: the inner product of the edge's hidden values with `w2`'s column `o`, plus the bias. -/
def out (src dst : (⟨2, ![1600000, 64]⟩ : Shape).Idx → EReal) (attr : (⟨2, ![1600000, 32]⟩ : Shape).Idx → EReal)
    (w1 : (⟨2, ![160, 128]⟩ : Shape).Idx → EReal) (b1 : (⟨1, ![128]⟩ : Shape).Idx → EReal)
    (w2 : (⟨2, ![128, 32]⟩ : Shape).Idx → EReal) (b2 : (⟨1, ![32]⟩ : Shape).Idx → EReal) :
    (⟨2, ![1600000, 32]⟩ : Shape).Idx → EReal :=
  fun i => (∑ k : Fin 128, hidden src dst attr w1 b1 (i 0) k * w2 (ix2 k (i 1))) + b2 (ix1 (i 1))

end Cert.EdgeMlp

end
-- ==== Proof.ReferenceIsEdgeMlp.lean ====
/-
  The reference computes the edge MLP of `EdgeMlpSpec`.

  The reference lays each edge's source row, destination row and attribute row side by side into one row of 160
  features, multiplies by `w1`, adds `b1`, clips at zero, multiplies by `w2` and adds `b2`. Read at one output index
  `(r, o)`: the joined row's entry `J` is the source row's entry `J` for `J < 64`, the destination row's entry
  `J - 64` for `64 ≤ J < 128` and the attribute row's entry `J - 128` from there on (`joined_band0/1/2`); so the inner
  product over the 160 features, split into its three bands by `EdgeMlp.sum_three_bands`, is the three banded inner
  products of `EdgeMlp.hidden` (`hidden_eq`), and the second layer is `EdgeMlp.out` term by term (`result_eq`).
-/
import proofs.«178853_j7713761264051_2_alg».proof.Proof.Gen.ReferenceIdeal.Read
import proofs.«178853_j7713761264051_2_alg».proof.Proof.EdgeMlpSpec
import Idealize.ShloMosaic.Lib.Pipeline.Value
import Idealize.ShloMosaic.Lib.ValueIdx
import Idealize.ShloMosaic.PureOps.Ideal.Laws

noncomputable section

open scoped BigOperators

namespace Cert.ReferenceIdeal.EdgeMlpRef

open Cert.ReferenceIdeal Cert.ReferenceIdeal.Read Idealize.ShloMosaic Idealize.ShloMosaic.ValueIdx

/-! ## The joined row, band by band -/

/-- In its first 64 columns the joined array is the source array: entry `(r, J)` is the source's `(r, J)`. -/
theorem joined_band0 (x0 x1 : (⟨S1600000x64, .f32⟩ : BufTy).Contents (Elt Ideal)) (x2 : (⟨S1600000x32, .f32⟩ : BufTy).Contents (Elt Ideal))
    (i : S1600000x160.Idx) (j : S1600000x64.Idx) (h0 : (j 0).val = (i 0).val) (h1 : 0 + (j 1).val = (i 1).val) :
    val_main_v0 (F := Ideal) x0 x1 x2 i = x0 j := by
  unfold val_main_v0
  refine concatenate_apply_piece _ _ _ i 0 (by show (0 : Nat) < 3; omega) S1600000x64 x0 rfl rfl 0 rfl j (fun b hb => ?_) h1
  match b with
  | ⟨0, _⟩ => exact h0
  | ⟨1, _⟩ => exact absurd (Fin.ext rfl) hb

/-- In columns 64–127 it is the destination array: entry `(r, 64 + J)` is the destination's `(r, J)`. -/
theorem joined_band1 (x0 x1 : (⟨S1600000x64, .f32⟩ : BufTy).Contents (Elt Ideal)) (x2 : (⟨S1600000x32, .f32⟩ : BufTy).Contents (Elt Ideal))
    (i : S1600000x160.Idx) (j : S1600000x64.Idx) (h0 : (j 0).val = (i 0).val) (h1 : 64 + (j 1).val = (i 1).val) :
    val_main_v0 (F := Ideal) x0 x1 x2 i = x1 j := by
  unfold val_main_v0
  refine concatenate_apply_piece _ _ _ i 1 (by show (1 : Nat) < 3; omega) S1600000x64 x1 rfl rfl 64 rfl j (fun b hb => ?_) h1
  match b with
  | ⟨0, _⟩ => exact h0
  | ⟨1, _⟩ => exact absurd (Fin.ext rfl) hb

/-- In columns 128–159 it is the attribute array: entry `(r, 128 + J)` is the attributes' `(r, J)`. -/
theorem joined_band2 (x0 x1 : (⟨S1600000x64, .f32⟩ : BufTy).Contents (Elt Ideal)) (x2 : (⟨S1600000x32, .f32⟩ : BufTy).Contents (Elt Ideal))
    (i : S1600000x160.Idx) (j : S1600000x32.Idx) (h0 : (j 0).val = (i 0).val) (h1 : 128 + (j 1).val = (i 1).val) :
    val_main_v0 (F := Ideal) x0 x1 x2 i = x2 j := by
  unfold val_main_v0
  refine concatenate_apply_piece _ _ _ i 2 (by show (2 : Nat) < 3; omega) S1600000x32 x2 rfl rfl 128 rfl j (fun b hb => ?_) h1
  match b with
  | ⟨0, _⟩ => exact h0
  | ⟨1, _⟩ => exact absurd (Fin.ext rfl) hb

/-! ## The operand indices of the two products and of the two biases, by coordinates -/

theorem w1_idx (r : Fin 1600000) (k : Fin 128) (J : Fin 160) : ridx_main_v1 (ix2 r k) J = ix2 J k :=
  funext fun a => match a with | ⟨0, _⟩ => rfl | ⟨1, _⟩ => rfl

theorem b1_idx (r : Fin 1600000) (k : Fin 128) : idx_main_v2 (idx_main_v3 (ix2 r k)) = ix1 k :=
  funext fun a => match a with | ⟨0, _⟩ => rfl

theorem hidden_idx (r : Fin 1600000) (o : Fin 32) (k : Fin 128) : lidx_main_v6 (ix2 r o) k = ix2 r k :=
  funext fun a => match a with | ⟨0, _⟩ => rfl | ⟨1, _⟩ => rfl

theorem w2_idx (r : Fin 1600000) (o : Fin 32) (k : Fin 128) : ridx_main_v6 (ix2 r o) k = ix2 k o :=
  funext fun a => match a with | ⟨0, _⟩ => rfl | ⟨1, _⟩ => rfl

theorem b2_idx (r : Fin 1600000) (o : Fin 32) : idx_main_v7 (idx_main_v8 (ix2 r o)) = ix1 o :=
  funext fun a => match a with | ⟨0, _⟩ => rfl

/-! ## The first layer, then the whole result -/

/-- The reference's clipped first layer at `(r, k)` is `EdgeMlp.hidden`: its inner product over the 160 joined
    features is the sum of the three banded inner products. -/
theorem hidden_eq (x0 x1 : (⟨S1600000x64, .f32⟩ : BufTy).Contents (Elt Ideal)) (x2 : (⟨S1600000x32, .f32⟩ : BufTy).Contents (Elt Ideal))
    (x5 : (⟨S160x128, .f32⟩ : BufTy).Contents (Elt Ideal)) (x6 : (⟨S128, .f32⟩ : BufTy).Contents (Elt Ideal))
    (r : Fin 1600000) (k : Fin 128) :
    val_main_v5 (F := Ideal) x0 x1 x2 x5 x6 (ix2 r k) = EdgeMlp.hidden x0 x1 x2 x5 x6 r k := by
  rw [val_main_v5_apply, val_main_v4_apply, val_main_v1_apply, val_main_v3_apply, val_main_v2_apply,
    val_main_call0_v0_apply, val_main_call0_cst_apply, EdgeMlp.sum_three_bands]
  unfold EdgeMlp.hidden
  refine congrArg₂ max (congrArg₂ (· + ·) (congrArg₂ (· + ·) (congrArg₂ (· + ·) ?_ ?_) ?_) ?_) rfl
  · exact Finset.sum_congr rfl fun j _ =>
      congrArg₂ (· * ·) (joined_band0 x0 x1 x2 _ (ix2 r j) rfl (Nat.zero_add _)) (congrArg x5 (w1_idx r k _))
  · exact Finset.sum_congr rfl fun j _ =>
      congrArg₂ (· * ·) (joined_band1 x0 x1 x2 _ (ix2 r j) rfl rfl) (congrArg x5 (w1_idx r k _))
  · exact Finset.sum_congr rfl fun j _ =>
      congrArg₂ (· * ·) (joined_band2 x0 x1 x2 _ (ix2 r j) rfl rfl) (congrArg x5 (w1_idx r k _))
  · exact congrArg x6 (b1_idx r k)

/-- The reference's result array is `EdgeMlp.out` of its arguments. -/
theorem result_eq (x0 x1 : (⟨S1600000x64, .f32⟩ : BufTy).Contents (Elt Ideal)) (x2 : (⟨S1600000x32, .f32⟩ : BufTy).Contents (Elt Ideal))
    (x5 : (⟨S160x128, .f32⟩ : BufTy).Contents (Elt Ideal)) (x6 : (⟨S128, .f32⟩ : BufTy).Contents (Elt Ideal))
    (x7 : (⟨S128x32, .f32⟩ : BufTy).Contents (Elt Ideal)) (x8 : (⟨S32, .f32⟩ : BufTy).Contents (Elt Ideal)) :
    val_main_v9 (F := Ideal) x0 x1 x2 x5 x6 x7 x8 = EdgeMlp.out x0 x1 x2 x5 x6 x7 x8 := by
  funext i
  obtain ⟨r, o, rfl⟩ : ∃ (r : Fin 1600000) (o : Fin 32), i = ix2 r o := ⟨i 0, i 1, eq_ix2 i⟩
  rw [val_main_v9_apply, val_main_v6_apply, val_main_v8_apply, val_main_v7_apply]
  unfold EdgeMlp.out
  refine congrArg₂ (· + ·) (Finset.sum_congr rfl fun k _ => congrArg₂ (· * ·) ?_ (congrArg x7 (w2_idx r o k))) (congrArg x8 (b2_idx r o))
  rw [hidden_idx r o k]
  exact hidden_eq x0 x1 x2 x5 x6 r k

end Cert.ReferenceIdeal.EdgeMlpRef

end
-- ==== Proof.BodyAtEntry.lean ====
/-
  The kernel body's stored value, read at one entry of the output block.

  At one grid point the body holds a block of 10000 edges: their source rows `v0`, destination rows `v4` and attribute
  rows `v9`, together with the three row bands `v1`, `v5`, `v10` of the first layer's matrix, its bias `v14`, the second
  layer's matrix `v20` and bias `v22`. Each matrix product into a zero accumulator is, at an entry, the inner product of
  a row of the left factor with a column of the right factor (`product64`, `product32`, `product128`); a bias vector cast
  to one row and broadcast down the rows is, at `(p, c)`, the bias at `c`. So the stored block at `(p, o)` is the edge
  MLP of block row `p` written in its banded form (`body_at`).
-/
import proofs.«178853_j7713761264051_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeMlpBody

open Cert.KernelIdeal Cert.KernelIdeal.Gen Idealize.ShloMosaic Idealize.ShloMosaic.ValueIdx

/-! ## A matrix product into a zero accumulator, at an entry -/

/-- Ten thousand rows of 64 features times a 64 × 128 matrix, from zero: entry `(p, c)` is row `p` against column `c`. -/
theorem product64 (l : FVec Ideal S10000x64 .f32) (w : FVec Ideal S64x128 .f32) (p : Fin 10000) (c : Fin 128) :
    matmul dot_S10000x64_S64x128_S10000x128_1_0_0_1_n_n none l w (constant (F := Ideal) S10000x128 .f32 0x00000000#32) (ix2 p c)
      = ∑ j : Fin 64, l (ix2 p j) * w (ix2 j c) := by
  refine (Ideal.matmul_constant_zero_apply dot_S10000x64_S64x128_S10000x128_1_0_0_1_n_n none l w (ix2 p c)).trans ?_
  rw [← Equiv.sum_comp (contrEquiv1 dot_S10000x64_S64x128_S10000x128_1_0_0_1_n_n 64 rfl rfl).symm]
  refine Finset.sum_congr rfl fun j _ => ?_
  have hj := contrEquiv1_symm_val dot_S10000x64_S64x128_S10000x128_1_0_0_1_n_n 64 rfl rfl j
  have el : dot_S10000x64_S64x128_S10000x128_1_0_0_1_n_n.lhsIdx (ix2 p c) ((contrEquiv1 dot_S10000x64_S64x128_S10000x128_1_0_0_1_n_n 64 rfl rfl).symm j) = ix2 p j := funext fun a => Fin.ext (by
    match a with
    | ⟨0, _⟩ =>
      show (dot_S10000x64_S64x128_S10000x128_1_0_0_1_n_n.lhsIdx (ix2 p c) _ 0).val = p.val
      unfold DotDims.lhsIdx
      rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
      rfl
    | ⟨1, _⟩ => exact (dot_S10000x64_S64x128_S10000x128_1_0_0_1_n_n.lhsIdx_val_of_single rfl (ix2 p c) _).trans hj)
  have er : dot_S10000x64_S64x128_S10000x128_1_0_0_1_n_n.rhsIdx (ix2 p c) ((contrEquiv1 dot_S10000x64_S64x128_S10000x128_1_0_0_1_n_n 64 rfl rfl).symm j) = ix2 j c := funext fun a => Fin.ext (by
    match a with
    | ⟨0, _⟩ => exact (dot_S10000x64_S64x128_S10000x128_1_0_0_1_n_n.rhsIdx_val_of_single rfl (ix2 p c) _).trans hj
    | ⟨1, _⟩ =>
      show (dot_S10000x64_S64x128_S10000x128_1_0_0_1_n_n.rhsIdx (ix2 p c) _ 1).val = c.val
      unfold DotDims.rhsIdx
      rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
      rfl)
  rw [el, er]

/-- Ten thousand rows of 32 features times a 32 × 128 matrix, from zero: entry `(p, c)` is row `p` against column `c`. -/
theorem product32 (l : FVec Ideal S10000x32 .f32) (w : FVec Ideal S32x128 .f32) (p : Fin 10000) (c : Fin 128) :
    matmul dot_S10000x32_S32x128_S10000x128_1_0_0_1_n_n none l w (constant (F := Ideal) S10000x128 .f32 0x00000000#32) (ix2 p c)
      = ∑ j : Fin 32, l (ix2 p j) * w (ix2 j c) := by
  refine (Ideal.matmul_constant_zero_apply dot_S10000x32_S32x128_S10000x128_1_0_0_1_n_n none l w (ix2 p c)).trans ?_
  rw [← Equiv.sum_comp (contrEquiv1 dot_S10000x32_S32x128_S10000x128_1_0_0_1_n_n 32 rfl rfl).symm]
  refine Finset.sum_congr rfl fun j _ => ?_
  have hj := contrEquiv1_symm_val dot_S10000x32_S32x128_S10000x128_1_0_0_1_n_n 32 rfl rfl j
  have el : dot_S10000x32_S32x128_S10000x128_1_0_0_1_n_n.lhsIdx (ix2 p c) ((contrEquiv1 dot_S10000x32_S32x128_S10000x128_1_0_0_1_n_n 32 rfl rfl).symm j) = ix2 p j := funext fun a => Fin.ext (by
    match a with
    | ⟨0, _⟩ =>
      show (dot_S10000x32_S32x128_S10000x128_1_0_0_1_n_n.lhsIdx (ix2 p c) _ 0).val = p.val
      unfold DotDims.lhsIdx
      rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
      rfl
    | ⟨1, _⟩ => exact (dot_S10000x32_S32x128_S10000x128_1_0_0_1_n_n.lhsIdx_val_of_single rfl (ix2 p c) _).trans hj)
  have er : dot_S10000x32_S32x128_S10000x128_1_0_0_1_n_n.rhsIdx (ix2 p c) ((contrEquiv1 dot_S10000x32_S32x128_S10000x128_1_0_0_1_n_n 32 rfl rfl).symm j) = ix2 j c := funext fun a => Fin.ext (by
    match a with
    | ⟨0, _⟩ => exact (dot_S10000x32_S32x128_S10000x128_1_0_0_1_n_n.rhsIdx_val_of_single rfl (ix2 p c) _).trans hj
    | ⟨1, _⟩ =>
      show (dot_S10000x32_S32x128_S10000x128_1_0_0_1_n_n.rhsIdx (ix2 p c) _ 1).val = c.val
      unfold DotDims.rhsIdx
      rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
      rfl)
  rw [el, er]

/-- Ten thousand rows of 128 hidden values times a 128 × 32 matrix, from zero: entry `(p, c)` is row `p` against column `c`. -/
theorem product128 (l : FVec Ideal S10000x128 .f32) (w : FVec Ideal S128x32 .f32) (p : Fin 10000) (c : Fin 32) :
    matmul dot_S10000x128_S128x32_S10000x32_1_0_0_1_n_n none l w (constant (F := Ideal) S10000x32 .f32 0x00000000#32) (ix2 p c)
      = ∑ j : Fin 128, l (ix2 p j) * w (ix2 j c) := by
  refine (Ideal.matmul_constant_zero_apply dot_S10000x128_S128x32_S10000x32_1_0_0_1_n_n none l w (ix2 p c)).trans ?_
  rw [← Equiv.sum_comp (contrEquiv1 dot_S10000x128_S128x32_S10000x32_1_0_0_1_n_n 128 rfl rfl).symm]
  refine Finset.sum_congr rfl fun j _ => ?_
  have hj := contrEquiv1_symm_val dot_S10000x128_S128x32_S10000x32_1_0_0_1_n_n 128 rfl rfl j
  have el : dot_S10000x128_S128x32_S10000x32_1_0_0_1_n_n.lhsIdx (ix2 p c) ((contrEquiv1 dot_S10000x128_S128x32_S10000x32_1_0_0_1_n_n 128 rfl rfl).symm j) = ix2 p j := funext fun a => Fin.ext (by
    match a with
    | ⟨0, _⟩ =>
      show (dot_S10000x128_S128x32_S10000x32_1_0_0_1_n_n.lhsIdx (ix2 p c) _ 0).val = p.val
      unfold DotDims.lhsIdx
      rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
      rfl
    | ⟨1, _⟩ => exact (dot_S10000x128_S128x32_S10000x32_1_0_0_1_n_n.lhsIdx_val_of_single rfl (ix2 p c) _).trans hj)
  have er : dot_S10000x128_S128x32_S10000x32_1_0_0_1_n_n.rhsIdx (ix2 p c) ((contrEquiv1 dot_S10000x128_S128x32_S10000x32_1_0_0_1_n_n 128 rfl rfl).symm j) = ix2 j c := funext fun a => Fin.ext (by
    match a with
    | ⟨0, _⟩ => exact (dot_S10000x128_S128x32_S10000x32_1_0_0_1_n_n.rhsIdx_val_of_single rfl (ix2 p c) _).trans hj
    | ⟨1, _⟩ =>
      show (dot_S10000x128_S128x32_S10000x32_1_0_0_1_n_n.rhsIdx (ix2 p c) _ 1).val = c.val
      unfold DotDims.rhsIdx
      rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
      rfl)
  rw [el, er]

/-! ## The stored block at an entry -/

/-- The body's stored value at `(p, o)`: over the 128 hidden units `k`, the three banded inner products of block row
    `p` with column `k` of the first layer's bands, plus the bias, clipped below at zero, times the second layer's
    entry `(k, o)`; summed, plus the second bias at `o`. -/
theorem body_at (v0 : Vec Ideal S10000x64 .f32) (v1 : Vec Ideal S64x128 .f32) (v4 : Vec Ideal S10000x64 .f32) (v5 : Vec Ideal S64x128 .f32)
    (v9 : Vec Ideal S10000x32 .f32) (v10 : Vec Ideal S32x128 .f32) (v14 : Vec Ideal S128 .f32) (v20 : Vec Ideal S128x32 .f32)
    (v22 : Vec Ideal S32 .f32) (p : Fin 10000) (o : Fin 32) :
    k0_pay1 (F := Ideal) v0 v1 v4 v5 v9 v10 v14 v20 v22 (ix2 p o)
      = (∑ k : Fin 128,
          max (((∑ j : Fin 64, v0 (ix2 p j) * v1 (ix2 j k) + ∑ j : Fin 64, v4 (ix2 p j) * v5 (ix2 j k))
                + ∑ j : Fin 32, v9 (ix2 p j) * v10 (ix2 j k)) + v14 (ix1 k))
              (Ideal.ofBits .f32 0x00000000#32) * v20 (ix2 k o))
        + v22 (ix1 o) := by
  unfold k0_pay1
  rw [addf_apply, product128, broadcastTo_1b_ab_apply, shapeCast_a_1a_apply]
  refine congrArg (· + v22 (ix1 o)) (Finset.sum_congr rfl fun k _ => congrArg (· * v20 (ix2 k o)) ?_)
  rw [maximumf_apply, addf_apply, addf_apply, addf_apply, product64, product64, product32,
    shapeCast_self, shapeCast_self, shapeCast_self, broadcastTo_1b_ab_apply, shapeCast_a_1a_apply, broadcast_apply]
  rfl

end Cert.KernelIdeal.EdgeMlpBody

end
-- ==== Proof.KernelIsEdgeMlp.lean ====
/-
  The kernel computes the edge MLP of `EdgeMlpSpec`: from what one grid point writes back to the whole result array.

  The grid has 160 points; point `t` works on edges `10000 t … 10000 t + 9999`. Its three moving input blocks are those
  rows of the source, destination and attribute arrays (`src_block`, `dst_block`, `attr_block`); its six resident
  blocks are whole arrays: the three row bands of `w1` that the host cut out before the launch — rows 0–63, 64–127 and
  128–159 (`band0/1/2`, read back as rows of `w1` in `w1a_block`, `w1b_block`, `w1c_block`) — and `b1`, `w2`, `b2`.
  With the body's stored value at an entry (`EdgeMlpBody.body_at`), what point `t` writes back is block `t` of
  `EdgeMlp.out` of the argument arrays (`flushed_eq`): the block row `p` of point `t` is edge `10000 t + p`, and a band's
  row `j` is row `j`, `64 + j` or `128 + j` of `w1`. Every edge `r` lies in the block of point `r / 10000`
  (`covered`), so the result array ends holding `EdgeMlp.out` everywhere (`final`, `run`).
-/
import proofs.«178853_j7713761264051_2_alg».proof.Proof.Gen.KernelIdeal.Value
import proofs.«178853_j7713761264051_2_alg».proof.Proof.EdgeMlpSpec
import proofs.«178853_j7713761264051_2_alg».proof.Proof.BodyAtEntry
import Idealize.ShloMosaic.Lib.Pipeline.Value
import Idealize.ShloMosaic.Lib.ValueIdx
import Idealize.ShloMosaic.Lib.StableHlo.Run

noncomputable section

open scoped BigOperators

namespace Cert.KernelIdeal.EdgeMlpValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Which block each window holds at a point -/

/-- The index maps, decided over the 160 points: the output and the three edge inputs sit at block row `t`, column
    block 0; the six resident windows at block 0. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The three bands of `w1` the host cut out before the launch -/

theorem band0 (c : Dev nD) : (V m c main_v0 : S64x128.Idx → EReal)
    = extractStridedSlice S64x128 ![0, 0] (m ((c : Thread nD τ).loc main_arg5)) slices_S160x128_S64x128_0_0 := by
  dsimp only [Gen.V, Gen.hostOps0]; after_results <;> rfl

theorem band1 (c : Dev nD) : (V m c main_v1 : S64x128.Idx → EReal)
    = extractStridedSlice S64x128 ![64, 0] (m ((c : Thread nD τ).loc main_arg5)) slices_S160x128_S64x128_64_0 := by
  dsimp only [Gen.V, Gen.hostOps0]; after_results <;> rfl

theorem band2 (c : Dev nD) : (V m c main_v2 : S32x128.Idx → EReal)
    = extractStridedSlice S32x128 ![128, 0] (m ((c : Thread nD τ).loc main_arg5)) slices_S160x128_S32x128_128_0 := by
  dsimp only [Gen.V, Gen.hostOps0]; after_results <;> rfl

/-! ## Each input block, read at an entry, as an entry of an argument array -/

/-- Point `t`'s source block at `(p, j)` is the source array at `(10000 t + p, j)`. -/
theorem src_block (c : Dev nD) (t : Fin cfg0.N) (y : S10000x64.Idx) (i : S1600000x64.Idx)
    (h0 : (i 0).val = t.val * 10000 + (y 0).val) (h1 : (i 1).val = (y 1).val) :
    (iblk m c 0 t : Vec Ideal S10000x64 .f32) y = (m ((c : Thread nD τ).loc main_arg0) : S1600000x64.Idx → EReal) i := by
  obtain ⟨-, -, e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- Point `t`'s destination block at `(p, j)` is the destination array at `(10000 t + p, j)`. -/
theorem dst_block (c : Dev nD) (t : Fin cfg0.N) (y : S10000x64.Idx) (i : S1600000x64.Idx)
    (h0 : (i 0).val = t.val * 10000 + (y 0).val) (h1 : (i 1).val = (y 1).val) :
    (iblk m c 1 t : Vec Ideal S10000x64 .f32) y = (m ((c : Thread nD τ).loc main_arg1) : S1600000x64.Idx → EReal) i := by
  obtain ⟨-, -, -, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 10000 + 1 * (y 0).val = (i 0).val; omega
  | ⟨1, _⟩ => show win0_1.index t (1 : Fin 2) * 64 + 1 * (y 1).val = (i 1).val; omega

/-- Point `t`'s attribute block at `(p, j)` is the attribute array at `(10000 t + p, j)`. -/
theorem attr_block (c : Dev nD) (t : Fin cfg0.N) (y : S10000x32.Idx) (i : S1600000x32.Idx)
    (h0 : (i 0).val = t.val * 10000 + (y 0).val) (h1 : (i 1).val = (y 1).val) :
    (iblk m c 2 t : Vec Ideal S10000x32 .f32) y = (m ((c : Thread nD τ).loc main_arg2) : S1600000x32.Idx → EReal) i := by
  obtain ⟨-, -, -, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 10000 + 1 * (y 0).val = (i 0).val; omega
  | ⟨1, _⟩ => show win0_2.index t (1 : Fin 2) * 32 + 1 * (y 1).val = (i 1).val; omega

/-- The first resident band at `(j, k)` is `w1` at `(j, k)`. -/
theorem w1a_block (c : Dev nD) (t : Fin cfg0.N) (y : S64x128.Idx) (i : S160x128.Idx)
    (h0 : (i 0).val = 0 + (y 0).val) (h1 : (i 1).val = (y 1).val) :
    (iblk m c 3 t : Vec Ideal S64x128 .f32) y = (m ((c : Thread nD τ).loc main_arg5) : S160x128.Idx → EReal) i := by
  obtain ⟨-, -, -, -, -, -, -, -, e0, e1, -⟩ := idx_facts t
  unfold iblk
  rw [View.read_apply]
  show (V m c main_v0 : S64x128.Idx → EReal) _ = _
  rw [band0]
  refine extractStridedSlice_apply _ _ _ _ i fun a => ?_
  match a with
  | ⟨0, _⟩ => show (i 0).val = 0 + (win0_3.index t (0 : Fin 2) * 64 + 1 * (y 0).val); omega
  | ⟨1, _⟩ => show (i 1).val = 0 + (win0_3.index t (1 : Fin 2) * 128 + 1 * (y 1).val); omega

/-- The second resident band at `(j, k)` is `w1` at `(64 + j, k)`. -/
theorem w1b_block (c : Dev nD) (t : Fin cfg0.N) (y : S64x128.Idx) (i : S160x128.Idx)
    (h0 : (i 0).val = 64 + (y 0).val) (h1 : (i 1).val = (y 1).val) :
    (iblk m c 4 t : Vec Ideal S64x128 .f32) y = (m ((c : Thread nD τ).loc main_arg5) : S160x128.Idx → EReal) i := by
  obtain ⟨-, -, -, -, -, -, -, -, -, -, e0, e1, -⟩ := idx_facts t
  unfold iblk
  rw [View.read_apply]
  show (V m c main_v1 : S64x128.Idx → EReal) _ = _
  rw [band1]
  refine extractStridedSlice_apply _ _ _ _ i fun a => ?_
  match a with
  | ⟨0, _⟩ => show (i 0).val = 64 + (win0_4.index t (0 : Fin 2) * 64 + 1 * (y 0).val); omega
  | ⟨1, _⟩ => show (i 1).val = 0 + (win0_4.index t (1 : Fin 2) * 128 + 1 * (y 1).val); omega

/-- The third resident band at `(j, k)` is `w1` at `(128 + j, k)`. -/
theorem w1c_block (c : Dev nD) (t : Fin cfg0.N) (y : S32x128.Idx) (i : S160x128.Idx)
    (h0 : (i 0).val = 128 + (y 0).val) (h1 : (i 1).val = (y 1).val) :
    (iblk m c 5 t : Vec Ideal S32x128 .f32) y = (m ((c : Thread nD τ).loc main_arg5) : S160x128.Idx → EReal) i := by
  obtain ⟨-, -, -, -, -, -, -, -, -, -, -, -, e0, e1, -⟩ := idx_facts t
  unfold iblk
  rw [View.read_apply]
  show (V m c main_v2 : S32x128.Idx → EReal) _ = _
  rw [band2]
  refine extractStridedSlice_apply _ _ _ _ i fun a => ?_
  match a with
  | ⟨0, _⟩ => show (i 0).val = 128 + (win0_5.index t (0 : Fin 2) * 32 + 1 * (y 0).val); omega
  | ⟨1, _⟩ => show (i 1).val = 0 + (win0_5.index t (1 : Fin 2) * 128 + 1 * (y 1).val); omega

/-- The resident first bias at `k` is `b1` at `k`. -/
theorem b1_block (c : Dev nD) (t : Fin cfg0.N) (y : S128.Idx) :
    (iblk m c 6 t : Vec Ideal S128 .f32) y = (m ((c : Thread nD τ).loc main_arg6) : S128.Idx → EReal) y := by
  obtain ⟨-, -, -, -, -, -, -, -, -, -, -, -, -, -, e0, -⟩ := idx_facts t
  unfold iblk
  rw [View.read_apply]
  show V m c main_arg6 _ = _
  rw [V_main_arg6]
  refine congrArg _ (funext fun a => Fin.ext ?_)
  match a with
  | ⟨0, _⟩ => show win0_6.index t (0 : Fin 1) * 128 + 1 * (y 0).val = (y 0).val; omega

/-- The resident second matrix at `(k, o)` is `w2` at `(k, o)`. -/
theorem w2_block (c : Dev nD) (t : Fin cfg0.N) (y : S128x32.Idx) :
    (iblk m c 7 t : Vec Ideal S128x32 .f32) y = (m ((c : Thread nD τ).loc main_arg7) : S128x32.Idx → EReal) y := by
  obtain ⟨-, -, -, -, -, -, -, -, -, -, -, -, -, -, -, e0, e1, -⟩ := idx_facts t
  unfold iblk
  rw [View.read_apply]
  show V m c main_arg7 _ = _
  rw [V_main_arg7]
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 32 + 1 * (y 1).val = (y 1).val; omega

/-- The resident second bias at `o` is `b2` at `o`. -/
theorem b2_block (c : Dev nD) (t : Fin cfg0.N) (y : S32.Idx) :
    (iblk m c 8 t : Vec Ideal S32 .f32) y = (m ((c : Thread nD τ).loc main_arg8) : S32.Idx → EReal) y := by
  obtain ⟨-, -, -, -, -, -, -, -, -, -, -, -, -, -, -, -, -, e0⟩ := idx_facts t
  unfold iblk
  rw [View.read_apply]
  show V m c main_arg8 _ = _
  rw [V_main_arg8]
  refine congrArg _ (funext fun a => Fin.ext ?_)
  match a with
  | ⟨0, _⟩ => show win0_8.index t (0 : Fin 1) * 32 + 1 * (y 0).val = (y 0).val; omega

/-! ## What a point writes back, the cover, the whole array -/

/-- The result array both programs should end with: the edge MLP of the argument arrays as launched. -/
abbrev result (c : Dev nD) : S1600000x32.Idx → EReal :=
  EdgeMlp.out (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7))
    (m ((c : Thread nD τ).loc main_arg8))

theorem hz2 : (![0, 0] : Fin 2 → Nat) = fun _ => 0 := funext fun a => by fin_cases a <;> rfl
theorem hz1 : (![0] : Fin 1 → Nat) = fun _ => 0 := funext fun a => by fin_cases a <;> rfl

/-- WHAT POINT `t` WRITES BACK is block `t` of `result`: entry `(p, o)` of the stored block is the edge MLP of edge
    `10000 t + p` at output `o`. -/
theorem flushed_eq (c : Dev nD) (t : Fin cfg0.N) :
    (dats m 0 c).flushed 9 t = ((cfg0.win 9).blk t).view.read (Elt Ideal) (result m c) := by
  rw [flushed9]
  unfold out0_9
  rw [View.canon_unit_zero hz2]
  simp only [View.ld_unit_zero (S := S10000x64) hz2, View.ld_unit_zero (S := S64x128) hz2, View.ld_unit_zero (S := S10000x32) hz2,
    View.ld_unit_zero (S := S32x128) hz2, View.ld_unit_zero (S := S128) hz1, View.ld_unit_zero (S := S128x32) hz2,
    View.ld_unit_zero (S := S32) hz1]
  obtain ⟨e0, e1, -⟩ := idx_facts t
  have hN : t.val < 160 := Nat.lt_of_lt_of_eq t.isLt (show cfg0.N = 160 from N_0)
  funext y
  have hp : (y 0).val < 10000 := (y 0).isLt
  have ho : (y 1).val < 32 := (y 1).isLt
  have he : ((cfg0.win 9).blk t).view.emb y
      = ix2 (⟨t.val * 10000 + (y 0).val, by omega⟩ : Fin 1600000) (⟨(y 1).val, ho⟩ : Fin 32) := funext fun a => Fin.ext (by
    match a with
    | ⟨0, _⟩ => show win0_9.index t (0 : Fin 2) * 10000 + 1 * (y 0).val = t.val * 10000 + (y 0).val; omega
    | ⟨1, _⟩ => show win0_9.index t (1 : Fin 2) * 32 + 1 * (y 1).val = (y 1).val; omega)
  show k0_pay1 (iblk m c 0 t) (iblk m c 3 t) (iblk m c 1 t) (iblk m c 4 t) (iblk m c 2 t) (iblk m c 5 t) (iblk m c 6 t)
      (iblk m c 7 t) (iblk m c 8 t) y = result m c (((cfg0.win 9).blk t).view.emb y)
  rw [he]
  refine (congrArg _ (eq_ix2 (y : S10000x32.Idx))).trans ((EdgeMlpBody.body_at (iblk m c 0 t) (iblk m c 3 t) (iblk m c 1 t)
    (iblk m c 4 t) (iblk m c 2 t) (iblk m c 5 t) (iblk m c 6 t) (iblk m c 7 t) (iblk m c 8 t) ⟨(y 0).val, hp⟩ ⟨(y 1).val, ho⟩).trans ?_)
  unfold result EdgeMlp.out EdgeMlp.hidden
  refine congrArg₂ (· + ·) (Finset.sum_congr rfl fun k _ => congrArg₂ (· * ·)
    (congrArg₂ max (congrArg₂ (· + ·) (congrArg₂ (· + ·) (congrArg₂ (· + ·) ?_ ?_) ?_) ?_) rfl) ?_) ?_
  · exact Finset.sum_congr rfl fun j _ => congrArg₂ (· * ·) (src_block m c t _ _ rfl rfl) (w1a_block m c t _ _ (Nat.zero_add _).symm rfl)
  · exact Finset.sum_congr rfl fun j _ => congrArg₂ (· * ·) (dst_block m c t _ _ rfl rfl) (w1b_block m c t _ _ rfl rfl)
  · exact Finset.sum_congr rfl fun j _ => congrArg₂ (· * ·) (attr_block m c t _ _ rfl rfl) (w1c_block m c t _ _ rfl rfl)
  · exact b1_block m c t _
  · exact w2_block m c t _
  · exact b2_block m c t _

/-- An index of the result array is in point `t`'s block iff each coordinate is in the block's range on its axis. -/
theorem mem_blk (t : Fin cfg0.N) (i : S1600000x32.Idx) :
    i ∈ ((cfg0.win 9).blk t).view.set ↔ ∀ a : Fin 2, win0_9.index t a * S10000x32.size a ≤ (i a).val
      ∧ (i a).val < win0_9.index t a * S10000x32.size a + S10000x32.size a := by
  show i ∈ ((View.whole main_v3).slice (win0_9.rect t)).set ↔ _
  rw [View.set_slice_whole, Rect.mem_set_unit]
  exact Iff.rfl

/-- Every entry `(r, o)` of the result array lies in the block of point `r / 10000`, which writes back. -/
theorem covered (i : S1600000x32.Idx) :
    ∃ t : Fin cfg0.N, (cfg0.win 9).flush t = true ∧ i ∈ ((cfg0.win 9).blk t).view.set := by
  have hi0 : (i 0).val < 1600000 := (i 0).isLt
  have hi1 : (i 1).val < 32 := (i 1).isLt
  obtain ⟨t, ht⟩ : ∃ t : Fin cfg0.N, t.val = (i 0).val / 10000 :=
    ⟨⟨(i 0).val / 10000, by rw [show cfg0.N = 160 from N_0]; omega⟩, rfl⟩
  obtain ⟨e0, e1, -⟩ := idx_facts t
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 32 ≤ (i 1).val ∧ (i 1).val < win0_9.index t (1 : Fin 2) * 32 + 32; omega

/-- THE RESULT ARRAY after the run is `result`. -/
theorem final (c : Dev nD) : (dats m 0 c).arrAt 9 cfg0.N = result m c :=
  (dats m 0 c).arrAt_eq_of_cover 9 (result m c) (fun t _ => flushed_eq m c t) covered

/-- The kernel's run, read: the result array at the edge MLP of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.EdgeMlpValue

end
-- ==== Proof.lean ====
/-
  The proof of `Cert.Claim`: a Pallas kernel for the edge model of a graph network — a two-layer perceptron applied
  to each of 1,600,000 edges — against its jnp reference.

  The reference joins an edge's source row (64 features), destination row (64) and attribute row (32) into one row of
  160 features and computes `relu(x · w1 + b1) · w2 + b2`. The kernel never forms the joined row: it cuts `w1` into its
  three row bands (rows 0–63, 64–127, 128–159) before the launch and, for each block of 10000 edges, adds the three
  products `src · w1[0:64] + dst · w1[64:128] + attr · w1[128:160]`. On the extended reals the inner product over 160
  consecutive features is the sum of the inner products over the three bands (`EdgeMlp.sum_three_bands`: addition is
  commutative and associative, nothing else is used, so finiteness of the inputs is never needed), a matrix product
  into a zero accumulator is the plain sum of products, and a change of tiling changes nothing; so both result arrays
  are the one function `EdgeMlp.out` of the argument arrays (Proof/EdgeMlpSpec.lean), the reference's by
  Proof/ReferenceIsEdgeMlp.lean and the kernel's by Proof/BodyAtEntry.lean (one block entry) and
  Proof/KernelIsEdgeMlp.lean (from blocks to the array). The idealization rewrote no operation, so `preserves` is
  `True`. The two kernel frames are the generated frame certificates; the reference's frame is its generated run with
  the result dropped.
-/
import proofs.«178853_j7713761264051_2_alg».proof.Defs
import proofs.«178853_j7713761264051_2_alg».proof.Proof.Gen.Kernel
import proofs.«178853_j7713761264051_2_alg».proof.Proof.Gen.Kernel.Skeleton
import proofs.«178853_j7713761264051_2_alg».proof.Proof.Gen.Kernel.Launch
import proofs.«178853_j7713761264051_2_alg».proof.Proof.Gen.Kernel.Points
import proofs.«178853_j7713761264051_2_alg».proof.Proof.Gen.Kernel.Frame
import proofs.«178853_j7713761264051_2_alg».proof.Proof.Gen.KernelIdeal
import proofs.«178853_j7713761264051_2_alg».proof.Proof.Gen.KernelIdeal.Skeleton
import proofs.«178853_j7713761264051_2_alg».proof.Proof.Gen.KernelIdeal.Launch
import proofs.«178853_j7713761264051_2_alg».proof.Proof.Gen.KernelIdeal.Points
import proofs.«178853_j7713761264051_2_alg».proof.Proof.Gen.KernelIdeal.Frame
import proofs.«178853_j7713761264051_2_alg».proof.Proof.Gen.ReferenceIdeal
import proofs.«178853_j7713761264051_2_alg».proof.Proof.Gen.Pre_finite_inputs
import proofs.«178853_j7713761264051_2_alg».proof.Proof.Gen.KernelIdeal.Value
import proofs.«178853_j7713761264051_2_alg».proof.Proof.Gen.ReferenceIdeal.Run
import proofs.«178853_j7713761264051_2_alg».proof.Proof.Gen.ReferenceIdeal.Read
import proofs.«178853_j7713761264051_2_alg».proof.Proof.EdgeMlpSpec
import proofs.«178853_j7713761264051_2_alg».proof.Proof.ReferenceIsEdgeMlp
import proofs.«178853_j7713761264051_2_alg».proof.Proof.KernelIsEdgeMlp
import Idealize.ShloMosaic.Adequacy
import Idealize.ShloMosaic.Init

noncomputable section

namespace Cert.Proof

open Idealize.ShloMosaic Idealize.SL.Sem

/-- The word-level kernel runs and leaves its arguments unchanged: the generated frame certificate. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its generated run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite, nothing to state. -/
theorem preserves : Cert.preserves_Kernel_KernelIdeal := trivial

/-- From memories that agree on the arguments, the kernel's result array ends at `EdgeMlp.out` of its arguments
    (`EdgeMlpValue.run`) and the reference's at its composed term, which is `EdgeMlp.out` of ITS arguments
    (`EdgeMlpRef.result_eq`); the arguments agree, so the two arrays are equal entry by entry. -/
theorem algebraic : Cert.algebraic_KernelIdeal_ReferenceIdeal := by
  intro m ρ m' ρ' _ hagree
  refine ⟨fun c => Cert.KernelIdeal.EdgeMlpValue.result m c, Cert.KernelIdeal.EdgeMlpValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v9_eq, Cert.ReferenceIdeal.EdgeMlpRef.result_eq, a0, a1, a2, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
